-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x3 : Shape := ⟨2, ![100000, 3]⟩
abbrev S3200000x2 : Shape := ⟨2, ![3200000, 2]⟩
abbrev S118x22x2 : Shape := ⟨3, ![118, 22, 2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S118x22x2 : S_.BroadcastsInDim S118x22x2 (![] : Fin 0 → Fin S118x22x2.rank)
  reducesTo_S118x22x2_S_d0_1_2 : S118x22x2.ReducesTo [0, 1, 2] S_

variable [Facts]

def fn {F : FTy → Type} [FloatOps F] (main_arg0 : IVec S100000 32) (main_arg1 : FVec F S100000x3 .f32) (main_arg2 : IVec S3200000x2 32) (main_arg3 : FVec F S118x22x2 .f32) : IVec S_ 1 :=
  let main_v0 : FVec F S100000x3 .f32 := Host.absf main_arg1
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S118x22x2 .f32 := Host.absf main_arg3
  let main_cst_0 : FVec F S_ .f32 := constant S_ .f32 0x7F800000#32
  let main_v5 : FVec F S118x22x2 .f32 := broadcastInDim S118x22x2 ![] bcast_S_S118x22x2 main_cst_0
  let main_v6 : IVec S118x22x2 1 := cmpf .olt main_v4 main_v5
  let main_c_1 : IVec S_ 1 := constantI S_ 1 1#1
  let main_v7 : IVec S_ 1 := (fun x v => Host.reduce IntOp.andi x v reducesTo_S118x22x2_S_d0_1_2 h_S_) main_v6 main_c_1
  let main_v8 : IVec S_ 1 := andi main_v3 main_v7
  main_v8
-- ==== Kernel.lean ====
abbrev S100000 : Shape := ⟨1, ![100000]⟩
abbrev S100000x3 : Shape := ⟨2, ![100000, 3]⟩
abbrev S3200000x2 : Shape := ⟨2, ![3200000, 2]⟩
abbrev S118x22x2 : Shape := ⟨3, ![118, 22, 2]⟩
abbrev S3200000x1 : Shape := ⟨2, ![3200000, 1]⟩
abbrev S3200000 : Shape := ⟨1, ![3200000]⟩
abbrev S_ : Shape := ⟨0, ![]⟩
abbrev S3200000x3 : Shape := ⟨2, ![3200000, 3]⟩
abbrev S118x22x1 : Shape := ⟨3, ![118, 22, 1]⟩
abbrev S118x22 : Shape := ⟨2, ![118, 22]⟩
abbrev S118x44 : Shape := ⟨2, ![118, 44]⟩
abbrev S3200000x44 : Shape := ⟨2, ![3200000, 44]⟩
abbrev S3200000x22 : Shape := ⟨2, ![3200000, 22]⟩
abbrev S4000x3 : Shape := ⟨2, ![4000, 3]⟩
abbrev S4000x44 : Shape := ⟨2, ![4000, 44]⟩
abbrev S4000x1 : Shape := ⟨2, ![4000, 1]⟩
abbrev S4000x22 : Shape := ⟨2, ![4000, 22]⟩
abbrev S4000 : Shape := ⟨1, ![4000]⟩
abbrev S100000x22 : Shape := ⟨2, ![100000, 22]⟩

abbrev nBuf : Space → Nat
  | .hbm => 66
  | .vmem => 8
  | .smem => 0
  | _ => 0

abbrev bufTy : (tb : Table) → Fin (tcTables nBuf tb) → BufTy
  | .hbm, ⟨0, _⟩ => ⟨S100000, .i32⟩
  | .hbm, ⟨1, _⟩ => ⟨S100000x3, .f32⟩
  | .hbm, ⟨2, _⟩ => ⟨S3200000x2, .i32⟩
  | .hbm, ⟨3, _⟩ => ⟨S118x22x2, .f32⟩
  | .hbm, ⟨4, _⟩ => ⟨S3200000x1, .i32⟩
  | .hbm, ⟨5, _⟩ => ⟨S3200000, .i32⟩
  | .hbm, ⟨6, _⟩ => ⟨S3200000x1, .i32⟩
  | .hbm, ⟨7, _⟩ => ⟨S3200000, .i32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x3, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x3, .f32⟩
  | .hbm, ⟨26, _⟩ => ⟨S3200000x3, .f32⟩
  | .hbm, ⟨27, _⟩ => ⟨S118x22x1, .f32⟩
  | .hbm, ⟨28, _⟩ => ⟨S118x22, .f32⟩
  | .hbm, ⟨29, _⟩ => ⟨S118x22x1, .f32⟩
  | .hbm, ⟨30, _⟩ => ⟨S118x22, .f32⟩
  | .hbm, ⟨31, _⟩ => ⟨S118x44, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .i32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x44, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000, .i32⟩
  | .hbm, ⟨59, _⟩ => ⟨S3200000, .f32⟩
  | .hbm, ⟨60, _⟩ => ⟨S3200000x1, .f32⟩
  | .hbm, ⟨61, _⟩ => ⟨S3200000x22, .f32⟩
  | .hbm, ⟨62, _⟩ => ⟨S_, .f32⟩
  | .hbm, ⟨63, _⟩ => ⟨S100000x22, .f32⟩
  | .hbm, ⟨64, _⟩ => ⟨S3200000x1, .i32⟩
  | .hbm, ⟨65, _⟩ => ⟨S100000x22, .f32⟩
  | .local _ .vmem, ⟨0, _⟩ => ⟨S4000x3, .f32⟩
  | .local _ .vmem, ⟨1, _⟩ => ⟨S4000x3, .f32⟩
  | .local _ .vmem, ⟨2, _⟩ => ⟨S4000x44, .f32⟩
  | .local _ .vmem, ⟨3, _⟩ => ⟨S4000x44, .f32⟩
  | .local _ .vmem, ⟨4, _⟩ => ⟨S4000x1, .f32⟩
  | .local _ .vmem, ⟨5, _⟩ => ⟨S4000x1, .f32⟩
  | .local _ .vmem, ⟨6, _⟩ => ⟨S4000x22, .f32⟩
  | .local _ .vmem, ⟨7, _⟩ => ⟨S4000x22, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x44 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x22 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S118x22x2_S118x22x1_0_0_0 : S118x22x2.Slices ![0, 0, 0] S118x22x1
  shapeCasts_S118x22x1_S118x22 : S118x22x1.ShapeCasts S118x22
  slices_S118x22x2_S118x22x1_0_0_1 : S118x22x2.Slices ![0, 0, 1] S118x22x1
  concatenates_S118x22_S118x22_S118x44_d1 : Shape.Concatenates [S118x22, S118x22] S118x44 1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S4000x44_S4000x44_0_0 : ∀ a, (![0, 0] : Fin 2 → Nat) a + S4000x44.size a ≤ S4000x44.size a
  h_S4000x44 : 0 < S4000x44.numel
  shapeCasts_S4000x44_S4000x44 : S4000x44.ShapeCasts S4000x44
  slices_S4000x44_o0_0_S4000x22 : S4000x44.Slices ![0, 0] S4000x22
  slices_S4000x44_o0_22_S4000x22 : S4000x44.Slices ![0, 22] S4000x22
  broadcasts_S4000x1_S4000x22 : S4000x1.Broadcasts S4000x22
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x22_S4000x22_0_0 : ∀ a, (![0, 0] : Fin 2 → Nat) a + S4000x22.size a ≤ S4000x22.size a
  h_S4000x22 : 0 < S4000x22.numel
  bcast_S_S100000x22 : S_.BroadcastsInDim S100000x22 (![] : Fin 0 → Fin S100000x22.rank)
  gather_S100000x3_S3200000x1_S3200000x3_1_0_n_n_0_1_13_wf : GatherDims.WF S100000x3 S3200000x1 S3200000x3 [1] [0] [] [0] [] 1 ![1, 3]
  gather_S100000_S3200000x1_S3200000_n_0_n_n_0_1_1_wf : GatherDims.WF S100000 S3200000x1 S3200000 [] [0] [] [0] [] 1 ![1]
  gather_S118x44_S3200000x1_S3200000x44_1_0_n_n_0_1_144_wf : GatherDims.WF S118x44 S3200000x1 S3200000x44 [1] [0] [] [0] [] 1 ![1, 44]
  scatter_S100000x22_S3200000x1_S3200000x22_1_0_0_1_wf : ScatterDims.WF S100000x22 S3200000x1 S3200000x22 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S3200000x3.size a
  hwx0_0 : ∀ i : grid0.Coords, EltTy.bits .f32 = 32 ∨ (Rect.block (s := S3200000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x44.size a ≤ S3200000x44.size a
  hwx0_1 : ∀ i : grid0.Coords, EltTy.bits .f32 = 32 ∨ (Rect.block (s := S3200000x44) S4000x44.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S3200000x1.size a
  hwx0_2 : ∀ i : grid0.Coords, EltTy.bits .f32 = 32 ∨ (Rect.block (s := S3200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x22.size a ≤ S3200000x22.size a
  hwx0_3 : ∀ i : grid0.Coords, EltTy.bits .f32 = 32 ∨ (Rect.block (s := S3200000x22) S4000x22.size (cc0_transform_3 i) (hinb0_3 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S118x44_S3200000x1_S3200000x44_1_0_n_n_0_1_144 : GatherDims S118x44 S3200000x1 S3200000x44 where
  offsetDims := [1]
  collapsedSliceDims := [0]
  operandBatchingDims := []
  startIndicesBatchingDims := []
  startIndexMap := [0]
  indexVectorDim := 1
  sliceSizes := ![1, 44]
  wf := gather_S118x44_S3200000x1_S3200000x44_1_0_n_n_0_1_144_wf
def scatter_S100000x22_S3200000x1_S3200000x22_1_0_0_1 : ScatterDims S100000x22 S3200000x1 S3200000x22 where
  updateWindowDims := [1]
  insertedWindowDims := [0]
  scatterDimsToOperandDims := [0]
  indexVectorDim := 1
  wf := scatter_S100000x22_S3200000x1_S3200000x22_1_0_0_1_wf

abbrev win0_0 : Pipeline.Window sig grid0 :=
  Pipeline.Window.ofSpec (Memref.whole main_v18) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S4000x44.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S4000x22.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000 : Shape := ⟨1, ![100000]⟩
abbrev S100000x3 : Shape := ⟨2, ![100000, 3]⟩
abbrev S3200000x2 : Shape := ⟨2, ![3200000, 2]⟩
abbrev S118x22x2 : Shape := ⟨3, ![118, 22, 2]⟩
abbrev S3200000x1 : Shape := ⟨2, ![3200000, 1]⟩
abbrev S3200000 : Shape := ⟨1, ![3200000]⟩
abbrev S_ : Shape := ⟨0, ![]⟩
abbrev S3200000x3 : Shape := ⟨2, ![3200000, 3]⟩
abbrev S3200000x22x2 : Shape := ⟨3, ![3200000, 22, 2]⟩
abbrev S3200000x22x1 : Shape := ⟨3, ![3200000, 22, 1]⟩
abbrev S3200000x22 : Shape := ⟨2, ![3200000, 22]⟩
abbrev S100000x22 : Shape := ⟨2, ![100000, 22]⟩

abbrev nBuf : Space → Nat
  | .hbm => 97
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x3, .f32⟩
  | .hbm, ⟨2, _⟩ => ⟨S3200000x2, .i32⟩
  | .hbm, ⟨3, _⟩ => ⟨S118x22x2, .f32⟩
  | .hbm, ⟨4, _⟩ => ⟨S3200000x1, .i32⟩
  | .hbm, ⟨5, _⟩ => ⟨S3200000, .i32⟩
  | .hbm, ⟨6, _⟩ => ⟨S3200000x1, .i32⟩
  | .hbm, ⟨7, _⟩ => ⟨S3200000, .i32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x3, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x3, .f32⟩
  | .hbm, ⟨26, _⟩ => ⟨S3200000x3, .f32⟩
  | .hbm, ⟨27, _⟩ => ⟨S3200000x3, .f32⟩
  | .hbm, ⟨28, _⟩ => ⟨S_, .f32⟩
  | .hbm, ⟨29, _⟩ => ⟨S3200000, .f32⟩
  | .hbm, ⟨30, _⟩ => ⟨S3200000x1, .f32⟩
  | .hbm, ⟨31, _⟩ => ⟨S3200000x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S3200000x1, .f32⟩
  | .hbm, ⟨36, _⟩ => ⟨S3200000x1, .f32⟩
  | .hbm, ⟨37, _⟩ => ⟨S_, .f32⟩
  | .hbm, ⟨38, _⟩ => ⟨S3200000x1, .f32⟩
  | .hbm, ⟨39, _⟩ => ⟨S3200000x1, .f32⟩
  | .hbm, ⟨40, _⟩ => ⟨S_, .f32⟩
  | .hbm, ⟨41, _⟩ => ⟨S3200000x1, .f32⟩
  | .hbm, ⟨42, _⟩ => ⟨S3200000x1, .f32⟩
  | .hbm, ⟨43, _⟩ => ⟨S3200000x1, .f32⟩
  | .hbm, ⟨44, _⟩ => ⟨S_, .f32⟩
  | .hbm, ⟨45, _⟩ => ⟨S3200000x1, .f32⟩
  | .hbm, ⟨46, _⟩ => ⟨S3200000x1, .f32⟩
  | .hbm, ⟨47, _⟩ => ⟨S_, .f32⟩
  | .hbm, ⟨48, _⟩ => ⟨S3200000x1, .f32⟩
  | .hbm, ⟨49, _⟩ => ⟨S3200000x1, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000, .i32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x22x2, .f32⟩
  | .hbm, ⟨68, _⟩ => ⟨S3200000x22x1, .f32⟩
  | .hbm, ⟨69, _⟩ => ⟨S3200000x22, .f32⟩
  | .hbm, ⟨70, _⟩ => ⟨S3200000x22x1, .f32⟩
  | .hbm, ⟨71, _⟩ => ⟨S3200000x22, .f32⟩
  | .hbm, ⟨72, _⟩ => ⟨S3200000x22, .f32⟩
  | .hbm, ⟨73, _⟩ => ⟨S3200000x22, .f32⟩
  | .hbm, ⟨74, _⟩ => ⟨S3200000x22, .f32⟩
  | .hbm, ⟨75, _⟩ => ⟨S3200000x22, .f32⟩
  | .hbm, ⟨76, _⟩ => ⟨S3200000x22, .f32⟩
  | .hbm, ⟨77, _⟩ => ⟨S3200000x22, .f32⟩
  | .hbm, ⟨78, _⟩ => ⟨S_, .i32⟩
  | .hbm, ⟨79, _⟩ => ⟨S3200000, .i32⟩
  | .hbm, ⟨80, _⟩ => ⟨S3200000, .i1⟩
  | .hbm, ⟨81, _⟩ => ⟨S_, .i32⟩
  | .hbm, ⟨82, _⟩ => ⟨S3200000, .i32⟩
  | .hbm, ⟨83, _⟩ => ⟨S3200000, .i32⟩
  | .hbm, ⟨84, _⟩ => ⟨S3200000, .i32⟩
  | .hbm, ⟨85, _⟩ => ⟨S3200000x1, .i32⟩
  | .hbm, ⟨86, _⟩ => ⟨S3200000, .i32⟩
  | .hbm, ⟨87, _⟩ => ⟨S3200000, .f32⟩
  | .hbm, ⟨88, _⟩ => ⟨S3200000x1, .f32⟩
  | .hbm, ⟨89, _⟩ => ⟨S3200000x22, .f32⟩
  | .hbm, ⟨90, _⟩ => ⟨S3200000x22, .f32⟩
  | .hbm, ⟨91, _⟩ => ⟨S3200000x22, .f32⟩
  | .hbm, ⟨92, _⟩ => ⟨S3200000x22, .f32⟩
  | .hbm, ⟨93, _⟩ => ⟨S_, .f32⟩
  | .hbm, ⟨94, _⟩ => ⟨S100000x22, .f32⟩
  | .hbm, ⟨95, _⟩ => ⟨S3200000x1, .i32⟩
  | .hbm, ⟨96, _⟩ => ⟨S100000x22, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_10 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S3200000x1 : S_.BroadcastsInDim S3200000x1 (![] : Fin 0 → Fin S3200000x1.rank)
  slices_S3200000x22x2_S3200000x22x1_0_0_0 : S3200000x22x2.Slices ![0, 0, 0] S3200000x22x1
  shapeCasts_S3200000x22x1_S3200000x22 : S3200000x22x1.ShapeCasts S3200000x22
  slices_S3200000x22x2_S3200000x22x1_0_0_1 : S3200000x22x2.Slices ![0, 0, 1] S3200000x22x1
  bcast_S3200000x1_S3200000x22_0_1 : S3200000x1.BroadcastsInDim S3200000x22 (![0, 1] : Fin 2 → Fin S3200000x22.rank)
  bcast_S_S100000x22 : S_.BroadcastsInDim S100000x22 (![] : Fin 0 → Fin S100000x22.rank)
  gather_S100000x3_S3200000x1_S3200000x3_1_0_n_n_0_1_13_wf : GatherDims.WF S100000x3 S3200000x1 S3200000x3 [1] [0] [] [0] [] 1 ![1, 3]
  gather_S100000_S3200000x1_S3200000_n_0_n_n_0_1_1_wf : GatherDims.WF S100000 S3200000x1 S3200000 [] [0] [] [0] [] 1 ![1]
  gather_S118x22x2_S3200000x1_S3200000x22x2_12_0_n_n_0_1_1222_wf : GatherDims.WF S118x22x2 S3200000x1 S3200000x22x2 [1, 2] [0] [] [0] [] 1 ![1, 22, 2]
  scatter_S100000x22_S3200000x1_S3200000x22_1_0_0_1_wf : ScatterDims.WF S100000x22 S3200000x1 S3200000x22 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S118x22x2_S3200000x1_S3200000x22x2_12_0_n_n_0_1_1222 : GatherDims S118x22x2 S3200000x1 S3200000x22x2 where
  offsetDims := [1, 2]
  collapsedSliceDims := [0]
  operandBatchingDims := []
  startIndicesBatchingDims := []
  startIndexMap := [0]
  indexVectorDim := 1
  sliceSizes := ![1, 22, 2]
  wf := gather_S118x22x2_S3200000x1_S3200000x22x2_12_0_n_n_0_1_1222_wf
def scatter_S100000x22_S3200000x1_S3200000x22_1_0_0_1 : ScatterDims S100000x22 S3200000x1 S3200000x22 where
  updateWindowDims := [1]
  insertedWindowDims := [0]
  scatterDimsToOperandDims := [0]
  indexVectorDim := 1
  wf := scatter_S100000x22_S3200000x1_S3200000x22_1_0_0_1_wf

class Facts : Prop extends Facts₀ where

variable [Facts]
-- ==== Proof.Edge.lean ====
/-
  The value one edge contributes to each radial channel, on the extended reals.
  For an edge with displacement d = x_i − x_j (three coordinates), channel parameters η and μ, and sender weight w:
    r      = √(d₀² + d₁² + d₂²)                                  the length of the displacement,
    f_c(r) = ½ · (cos(clip(r, −8, 8) · c) + 1)                    the cosine cutoff, c the single-precision number nearest π/8,
    g(r)   = exp(−η · (r − μ)²)                                   the Gaussian of the channel,
  and the contribution is g(r) · f_c(r) · w. Every constant is the exact value of its single-precision word; the same
  words occur on both sides of the comparison, so none of them is ever evaluated except the zero word.
-/
import Idealize.ShloMosaic.PureOps.Ideal.Laws
import Idealize.ShloMosaic.Lib.ValueIdx

noncomputable section

namespace Cert.Radial

open Idealize.ShloMosaic

/-- The length of a displacement with three coordinates: the square root of the sum of their squares. -/
def dist (d : Fin 3 → EReal) : EReal := Ideal.sqrt (∑ k : Fin 3, d k * d k)

/-- The cosine cutoff at radius `r`: one half of the cosine of the radius, clipped to [−8, 8] and scaled by the
    single-precision number nearest π/8, plus one. -/
def cutoff (r : EReal) : EReal :=
  Ideal.ofBits .f32 0x3F000000#32 *
    (Ideal.cos (min (Ideal.ofBits .f32 0x41000000#32) (max (Ideal.ofBits .f32 0xC1000000#32) r) * Ideal.ofBits .f32 0x3EC90FDB#32)
      + Ideal.ofBits .f32 0x3F800000#32)

/-- The Gaussian of a channel with width parameter `η` and centre `μ` at radius `r`. -/
def gauss (η μ r : EReal) : EReal := Ideal.exp (-η * ((r - μ) * (r - μ)))

/-- What one edge adds to one channel of its receiver. -/
def edge (η μ w : EReal) (d : Fin 3 → EReal) : EReal := gauss η μ (dist d) * cutoff (dist d) * w

/-- Subtracting from the zero word is negation: 0 − η = −η on every extended real. -/
theorem zero_word_sub (η : EReal) : Ideal.ofBits .f32 0x00000000#32 - η = -η := by
  rw [Ideal.ofBits_zero_f32, zero_sub]

/-- A sum started from the zero word is the sum: 0 + s = s. -/
theorem zero_word_add (s : EReal) : Ideal.ofBits .f32 0x00000000#32 + s = s := by
  rw [Ideal.ofBits_zero_f32, zero_add]

end Cert.Radial

end
-- ==== Proof.LibColumn.lean ====
/-
  Row-wise reductions kept as a column, read at an index, at the ideal values.
  A vector of a entries cast to an a×1 column reads its entry at the row; an a×1 column broadcast to a×b repeats each
  row's entry along the row; a sum (a maximum) along the rows of an a×b array is, at row i, the sum (the fold of max from
  the accumulator's value) over k < b of the entries (i, k).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `i` of a sum along the rows, with the column `k` put back, is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows of an `a × b` array, at row `i`: the sum of that row's entries. -/
theorem rowSum_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  rw [Ideal.multiReduction_add_single]
  exact Finset.sum_congr rfl fun k _ => congrArg src (lift_row h i k)

/-- A maximum along the rows of an `a × b` array, at row `i`: the fold of `max` from the accumulator's value over that
    row's entries. -/
theorem rowMax_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) := funext fun k => congrArg src (lift_row h i k)
  exact congrArg (fun f => Finset.fold max (Ideal.ofBits φ acc) f (Finset.univ : Finset (Fin b))) hf

end Cert.LibColumn

end
-- ==== Proof.KernelEdge.lean ====
/-
  The kernel body's stored value, read at one entry.
  The body loads a block of 4000 edges: their displacements (4000 × 3), their channel parameters (4000 × 44: columns 0–21 the
  widths η, columns 22–43 the centres μ) and their sender weights (4000 × 1), and stores a 4000 × 22 block. Entry (p, q) of
  the stored block depends on row p alone: it is the edge contribution of row p's displacement, with η = parameters (p, q),
  μ = parameters (p, 22 + q) and w = weight (p, 0). The lane sum of the squares is the plain sum of row p's three squares;
  the negation is written 0 − η, which is −η on every extended real.
-/
import proofs.«153033_j90958817394879_1_alg».proof.Proof.Gen.KernelIdeal.Skeleton
import proofs.«153033_j90958817394879_1_alg».proof.Proof.Edge
import proofs.«153033_j90958817394879_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Radial

open Idealize.ShloMosaic Idealize.ShloMosaic.ValueIdx Cert.KernelIdeal Cert.KernelIdeal.Gen

variable {s : Shape} {φ : FTy}

/-- The exponential, the cosine and the square root of an array are taken entry by entry. -/
theorem exp_at (a : FVec Ideal s φ) (i : s.Idx) : exp a i = Ideal.exp (a i) := rfl
theorem cos_at (a : FVec Ideal s φ) (i : s.Idx) : cos a i = Ideal.cos (a i) := rfl
theorem sqrt_at (a : FVec Ideal s φ) (i : s.Idx) : sqrt a i = Ideal.sqrt (a i) := rfl
/-- A scalar constant is the value of its word. -/
theorem word_at (b : BitVec 32) : (Scalar.ofBits (F := Ideal) .f32 b) = Ideal.ofBits .f32 b := rfl

/-- Row p's squared radius as the body computes it: the lane sum of the squared displacement, kept as a column, is the
    sum of the row's three squares. -/
theorem body_sumsq (x0 : FVec Ideal S4000x3 .f32) (h : S4000x3.Reduces [1] S4000) (hφ : FKind.Formats FTy.f32)
    (hacc : (0x00000000#32 : BitVec 32) = 0x00000000#32) (hc : S4000.ShapeCasts S4000x1) (p : Fin 4000) :
    shapeCast S4000x1 (multiReduction (F := Ideal) .add [1] S4000 (mulf x0 x0) 0x00000000#32 h hφ hacc) hc (ix2 p (0 : Fin 1))
      = ∑ k : Fin 3, x0 (ix2 p k) * x0 (ix2 p k) := by
  refine (Cert.LibColumn.shapeCast_a_a1_apply _ hc p (0 : Fin 1)).trans ?_
  exact Cert.LibColumn.rowSum_apply (mulf x0 x0) 0x00000000#32 h hφ hacc p

/-- Entry (p, q) of the block the body stores is the edge contribution of row p with the parameters of columns q and 22 + q. -/
theorem payload_apply (x0 : FVec Ideal S4000x3 .f32) (x1 : FVec Ideal S4000x44 .f32) (x2 : FVec Ideal S4000x1 .f32)
    (p : Fin 4000) (q : Fin 22) :
    k0_pay1 (F := Ideal) x0 x1 x2 (ix2 p q)
      = edge (x1 (ix2 p (⟨q.val, by omega⟩ : Fin 44))) (x1 (ix2 p (⟨22 + q.val, by omega⟩ : Fin 44))) (x2 (ix2 p (0 : Fin 1)))
          (fun k => x0 (ix2 p k)) := by
  unfold k0_pay1
  dsimp only
  rw [shapeCast_self x0, shapeCast_self x1, shapeCast_self x2]
  simp only [mulf_apply, subf_apply, addf_apply, maximumf_apply, minimumf_apply, broadcast_apply, exp_at, cos_at, sqrt_at, word_at,
    Cert.LibColumn.broadcastTo_a1_ab_apply, body_sumsq]
  rw [body_sumsq x0 reduces_S4000x3_S4000 _ _ shapeCasts_S4000_S4000x1 p]
  rw [slice2_axis1_apply 0 x1 slices_S4000x44_o0_0_S4000x22 p q (⟨q.val, by omega⟩ : Fin 44) (by simp),
    slice2_axis1_apply 22 x1 slices_S4000x44_o0_22_S4000x22 p q (⟨22 + q.val, by omega⟩ : Fin 44) rfl]
  rw [zero_word_sub]
  rfl

end Cert.Radial

end
-- ==== Proof.BlockEntry.lean ====
/-
  From a block to the array: one entry.
  The per-edge array the kernel produces is one function of three arrays indexed by the edge: the displacements D (E × 3),
  the parameter rows P (E × 44) and the weight column W (E × 1): entry (e, q) is the edge contribution of row e of D with
  width P(e, q), centre P(e, 22 + q) and weight W(e, 0). Block b of each array is its rows 4000·b … 4000·b + 3999, so entry
  (p, q) of what the body stores from block b's inputs is entry (4000·b + p, q) of that array.
-/
import proofs.«153033_j90958817394879_1_alg».proof.Proof.KernelEdge

noncomputable section

namespace Cert.Radial

open Idealize.ShloMosaic Idealize.ShloMosaic.ValueIdx Cert.KernelIdeal Cert.KernelIdeal.Gen

/-- The per-edge array as a function of the displacement, parameter and weight arrays. -/
def perEdge (D : FVec Ideal S3200000x3 .f32) (P : FVec Ideal S3200000x44 .f32) (W : FVec Ideal S3200000x1 .f32) :
    FVec Ideal S3200000x22 .f32 := fun i =>
  edge (P (ix2 (⟨(i 0).val, idx2_lt0 i⟩ : Fin 3200000) (⟨(i 1).val, by have := idx2_lt1 i; omega⟩ : Fin 44)))
    (P (ix2 (⟨(i 0).val, idx2_lt0 i⟩ : Fin 3200000) (⟨22 + (i 1).val, by have := idx2_lt1 i; omega⟩ : Fin 44)))
    (W (ix2 (⟨(i 0).val, idx2_lt0 i⟩ : Fin 3200000) (0 : Fin 1)))
    (fun k => D (ix2 (⟨(i 0).val, idx2_lt0 i⟩ : Fin 3200000) k))

theorem perEdge_apply (D : FVec Ideal S3200000x3 .f32) (P : FVec Ideal S3200000x44 .f32) (W : FVec Ideal S3200000x1 .f32)
    (e : Fin 3200000) (q : Fin 22) :
    perEdge D P W (ix2 e q)
      = edge (P (ix2 e (⟨q.val, by omega⟩ : Fin 44))) (P (ix2 e (⟨22 + q.val, by omega⟩ : Fin 44))) (W (ix2 e (0 : Fin 1)))
          (fun k => D (ix2 e k)) := rfl

/-- If the three loaded blocks are block b of D, P and W (an entry of a block is the array's entry b·4000 rows further
    down, in the same column), then entry j of what the body stores is the per-edge array's entry at j moved down the same
    way. -/
theorem entry_of_block (D : FVec Ideal S3200000x3 .f32) (P : FVec Ideal S3200000x44 .f32) (W : FVec Ideal S3200000x1 .f32)
    (x0 : FVec Ideal S4000x3 .f32) (x1 : FVec Ideal S4000x44 .f32) (x2 : FVec Ideal S4000x1 .f32) (b : Nat)
    (h0 : ∀ (y : S4000x3.Idx) (i : S3200000x3.Idx), (i 0).val = b * 4000 + (y 0).val → (i 1).val = (y 1).val → x0 y = D i)
    (h1 : ∀ (y : S4000x44.Idx) (i : S3200000x44.Idx), (i 0).val = b * 4000 + (y 0).val → (i 1).val = (y 1).val → x1 y = P i)
    (h2 : ∀ (y : S4000x1.Idx) (i : S3200000x1.Idx), (i 0).val = b * 4000 + (y 0).val → (i 1).val = (y 1).val → x2 y = W i)
    (j : S4000x22.Idx) (i : S3200000x22.Idx) (hi0 : (i 0).val = b * 4000 + (j 0).val) (hi1 : (i 1).val = (j 1).val) :
    k0_pay1 (F := Ideal) x0 x1 x2 j = perEdge D P W i := by
  obtain ⟨p, q, rfl⟩ : ∃ (p : Fin 4000) (q : Fin 22), j = ix2 p q := ⟨j 0, j 1, eq_ix2 j⟩
  obtain ⟨e, q', rfl⟩ : ∃ (e : Fin 3200000) (q' : Fin 22), i = ix2 e q' := ⟨i 0, i 1, eq_ix2 i⟩
  obtain rfl : q' = q := Fin.ext hi1
  have he : e.val = b * 4000 + p.val := hi0
  rw [payload_apply, perEdge_apply,
    h1 (ix2 p (⟨q'.val, by omega⟩ : Fin 44)) (ix2 e (⟨q'.val, by omega⟩ : Fin 44)) he rfl,
    h1 (ix2 p (⟨22 + q'.val, by omega⟩ : Fin 44)) (ix2 e (⟨22 + q'.val, by omega⟩ : Fin 44)) he rfl,
    h2 (ix2 p (0 : Fin 1)) (ix2 e (0 : Fin 1)) he rfl]
  exact congrArg _ (funext fun k => h0 (ix2 p k) (ix2 e k) he rfl)

end Cert.Radial

end
-- ==== Proof.Blocks.lean ====
/-
  The array the kernel leaves.
  The grid has 800 points; point t stages, of each of the four arrays, the block of rows 4000·t … 4000·t + 3999 (all columns),
  and writes the stored block back to the same rows of the output array. What point t writes back is therefore block t of
  the per-edge array of the three input arrays as the region finds them; the 800 blocks cover all 3 200 000 rows (row r is in
  block r / 4000); so after the run the output array is the per-edge array.
-/
import proofs.«153033_j90958817394879_1_alg».proof.Proof.Gen.KernelIdeal.Frame
import proofs.«153033_j90958817394879_1_alg».proof.Proof.BlockEntry
import Idealize.ShloMosaic.Lib.Pipeline.Value

set_option maxRecDepth 16384

noncomputable section

namespace Cert.Radial

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- Every window's block at point t starts at row-block t, column-block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The per-edge array of the three arrays the region finds. -/
def found (c : Dev nD) : FVec Ideal S3200000x22 .f32 :=
  perEdge (V m c main_v18) (V m c main_v37) (V m c main_v46)

/-- What point t writes back is block t of the per-edge array. -/
theorem written_block (c : Dev nD) (t : Fin cfg0.N) :
    (dats m 0 c).flushed 3 t = ((cfg0.win 3).blk t).view.read (Elt Ideal) (found m c) := by
  show (cfg0.win 3).cut (grid0.coords t) ((dats m 0 c).after 3 t) = _
  rw [after0_3]
  unfold out0_3
  rw [View.canon_unit_zero zero_offsets]
  simp only [View.ld_unit_zero (S := S4000x3) zero_offsets, View.ld_unit_zero (S := S4000x44) zero_offsets,
    View.ld_unit_zero (S := S4000x1) zero_offsets]
  obtain ⟨e00, e01, e10, e11, e20, e21, e30, e31⟩ := block_index t
  funext j
  show k0_pay1 (F := Ideal) (iblk m c 0 t) (iblk m c 1 t) (iblk m c 2 t) j = found m c (((cfg0.win 3).blk t).view.emb j)
  refine entry_of_block (V m c main_v18) (V m c main_v37) (V m c main_v46) _ _ _ t.val ?_ ?_ ?_ j _ ?_ ?_
  · intro y i h0 h1
    show V m c main_v18 (((cfg0.win 0).blk t).view.emb y) = V m c main_v18 i
    refine congrArg _ (funext fun a => Fin.ext ?_)
    match a with
    | ⟨0, _⟩ => show win0_0.index t (0 : Fin 2) * 4000 + 1 * (y 0).val = (i 0).val; omega
    | ⟨1, _⟩ => show win0_0.index t (1 : Fin 2) * 3 + 1 * (y 1).val = (i 1).val; omega
  · intro y i h0 h1
    show V m c main_v37 (((cfg0.win 1).blk t).view.emb y) = V m c main_v37 i
    refine congrArg _ (funext fun a => Fin.ext ?_)
    match a with
    | ⟨0, _⟩ => show win0_1.index t (0 : Fin 2) * 4000 + 1 * (y 0).val = (i 0).val; omega
    | ⟨1, _⟩ => show win0_1.index t (1 : Fin 2) * 44 + 1 * (y 1).val = (i 1).val; omega
  · intro y i h0 h1
    show V m c main_v46 (((cfg0.win 2).blk t).view.emb y) = V m c main_v46 i
    refine congrArg _ (funext fun a => Fin.ext ?_)
    match a with
    | ⟨0, _⟩ => show win0_2.index t (0 : Fin 2) * 4000 + 1 * (y 0).val = (i 0).val; omega
    | ⟨1, _⟩ => show win0_2.index t (1 : Fin 2) * 1 + 1 * (y 1).val = (i 1).val; omega
  · show win0_3.index t (0 : Fin 2) * 4000 + 1 * (j 0).val = t.val * 4000 + (j 0).val; omega
  · show win0_3.index t (1 : Fin 2) * 22 + 1 * (j 1).val = (j 1).val; omega

/-- An entry of the output array is in point t's block iff each coordinate is in the block's range on its axis. -/
theorem mem_block (t : Fin cfg0.N) (i : S3200000x22.Idx) :
    i ∈ ((cfg0.win 3).blk t).view.set ↔ ∀ a : Fin 2, win0_3.index t a * S4000x22.size a ≤ (i a).val
      ∧ (i a).val < win0_3.index t a * S4000x22.size a + S4000x22.size a := by
  show i ∈ ((View.whole main_v47).slice (win0_3.rect t)).set ↔ _
  rw [View.set_slice_whole, Rect.mem_set_unit]
  exact Iff.rfl

/-- Every entry of the output array is in some point's block: row r is in block r / 4000. -/
theorem covered (i : S3200000x22.Idx) :
    ∃ t : Fin cfg0.N, (cfg0.win 3).flush t = true ∧ i ∈ ((cfg0.win 3).blk t).view.set := by
  have hi0 : (i 0).val < 3200000 := (i 0).isLt
  have hi1 : (i 1).val < 22 := (i 1).isLt
  have hN : grid0.N = 800 := N_0
  obtain ⟨t, ht⟩ : ∃ t : Fin cfg0.N, t.val = (i 0).val / 4000 :=
    ⟨⟨(i 0).val / 4000, by show (i 0).val / 4000 < grid0.N; omega⟩, rfl⟩
  obtain ⟨e00, e01, e10, e11, e20, e21, e30, e31⟩ := block_index t
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 22 ≤ (i 1).val ∧ (i 1).val < win0_3.index t (1 : Fin 2) * 22 + 22
    omega

/-- After the run the output array is the per-edge array of the three arrays the region finds. -/
theorem output_array (c : Dev nD) : (dats m 0 c).arrAt 3 cfg0.N = found m c :=
  (dats m 0 c).arrAt_eq_of_cover 3 (found m c) (fun t _ => written_block m c t) covered

end Cert.Radial

end
-- ==== Proof.RefEdge.lean ====
/-
  The reference's per-edge array, read at one entry.
  The reference computes, for every edge e and channel q, the product g · f_c · w of the channel's Gaussian, the cosine
  cutoff and the sender weight, from: the displacement rows (e, ·) of the gathered coordinate differences; the entries
  (e, q, 0) and (e, q, 1) of the table gathered by the receiver's type (width and centre); and the weight column's
  entry (e, 0). Its sum of squares starts from the zero word, which adds nothing, and its negation of the width is −η.
  So entry (e, q) is the edge contribution of Edge.lean at those arguments.
-/
import proofs.«153033_j90958817394879_1_alg».proof.Proof.Gen.ReferenceIdeal.Read
import proofs.«153033_j90958817394879_1_alg».proof.Proof.Edge
import Idealize.ShloMosaic.Lib.ValueIdx
import Idealize.ShloMosaic.PureOps.Ideal.Laws

noncomputable section

namespace Cert.Radial

open Idealize.ShloMosaic Idealize.ShloMosaic.ValueIdx Cert.ReferenceIdeal Cert.ReferenceIdeal.Read

section Indices
variable (e : Fin 3200000) (q : Fin 22)

/-- The width of channel q for edge e sits at (e, q, 0) of the gathered table: the slice keeps the last coordinate 0 and the
    reshape drops it. -/
theorem idx_width : idx_main_v45 (idx_main_v46 (ix2 e q)) = ix3 e q (0 : Fin 2) := by
  have he := e.isLt; have hq := q.isLt
  funext a; apply Fin.ext
  match a with
  | ⟨0, _⟩ => show (e.val * 22 + q.val) / 22 = e.val; omega
  | ⟨1, _⟩ => show (e.val * 22 + q.val) / 1 % 22 = q.val; omega
  | ⟨2, _⟩ => rfl

/-- The centre of channel q for edge e sits at (e, q, 1). -/
theorem idx_centre : idx_main_v47 (idx_main_v48 (ix2 e q)) = ix3 e q (1 : Fin 2) := by
  have he := e.isLt; have hq := q.isLt
  funext a; apply Fin.ext
  match a with
  | ⟨0, _⟩ => show (e.val * 22 + q.val) / 22 = e.val; omega
  | ⟨1, _⟩ => show (e.val * 22 + q.val) / 1 % 22 = q.val; omega
  | ⟨2, _⟩ => rfl

/-- A column repeated along the channels reads, at (e, q), the column's entry (e, 0). -/
theorem idx_radius : idx_main_v50 (ix2 e q) = ix2 e (0 : Fin 1) := by
  funext a; apply Fin.ext
  match a with
  | ⟨0, _⟩ => rfl
  | ⟨1, _⟩ => rfl
theorem idx_cutoff : idx_main_v64 (ix2 e q) = ix2 e (0 : Fin 1) := by
  funext a; apply Fin.ext
  match a with
  | ⟨0, _⟩ => rfl
  | ⟨1, _⟩ => rfl
theorem idx_weight : idx_main_v66 (ix2 e q) = ix2 e (0 : Fin 1) := by
  funext a; apply Fin.ext
  match a with
  | ⟨0, _⟩ => rfl
  | ⟨1, _⟩ => rfl

/-- The column entry (e, 0) of the radii is the vector's entry e. -/
theorem idx_col : idx_main_v21 (ix2 e (0 : Fin 1)) = ix1 e := by
  funext a; apply Fin.ext
  match a with
  | ⟨0, _⟩ => rfl

/-- The k-th term of edge e's sum of squares is the displacement entry (e, k). -/
theorem idx_term (k : Fin 3) : idx_main_v20 (ix1 e) k = ix2 e k := by
  funext a; apply Fin.ext
  match a with
  | ⟨0, _⟩ => rfl
  | ⟨1, _⟩ => rfl

end Indices

section Stages
variable (x0 : (⟨S100000, .i32⟩ : BufTy).Contents (Elt Ideal)) (x1 : (⟨S100000x3, .f32⟩ : BufTy).Contents (Elt Ideal))
  (x2 : (⟨S3200000x2, .i32⟩ : BufTy).Contents (Elt Ideal)) (x3 : (⟨S118x22x2, .f32⟩ : BufTy).Contents (Elt Ideal))
  (e : Fin 3200000) (q : Fin 22)

/-- Edge e's radius: the square root of the sum, started from the zero word, of the three squared displacement entries. -/
theorem ref_radius :
    val_main_v22 (F := Ideal) x1 x2 (ix2 e (0 : Fin 1)) = dist (fun k => val_main_v18 (F := Ideal) x1 x2 (ix2 e k)) := by
  rw [val_main_v22_apply, val_main_v21_apply, idx_col, val_main_v20_apply, val_main_cst_apply]
  show Ideal.sqrt (Ideal.ofBits .f32 0x00000000#32 + _) = _
  rw [zero_word_add]
  unfold dist
  refine congrArg Ideal.sqrt (Finset.sum_congr rfl fun k _ => ?_)
  rw [idx_term, val_main_v19_apply]
  rfl

/-- Edge e's cutoff: the clip to [−8, 8], the scaling, the cosine, plus one, halved — of its radius. -/
theorem ref_cutoff :
    val_main_v30 (F := Ideal) x1 x2 (ix2 e (0 : Fin 1)) = cutoff (val_main_v22 (F := Ideal) x1 x2 (ix2 e (0 : Fin 1))) := by
  rw [val_main_v30_apply, val_main_v29_apply, val_main_cst_7_apply, val_main_v28_apply, val_main_v27_apply, val_main_cst_6_apply,
    val_main_v26_apply, val_main_v25_apply, val_main_v24_apply, val_main_cst_5_apply, val_main_v23_apply,
    val_main_call0_v4_apply, val_main_call0_v3_apply, val_main_cst_4_apply, val_main_call0_v2_apply,
    val_main_call0_v1_apply, val_main_call0_v0_apply, val_main_cst_3_apply]
  unfold cutoff
  simp only [Ideal.mulf_def, Ideal.addf_def, Ideal.hostUnary_cos_def, Ideal.maximumf_def, Ideal.minimumf_def, Ideal.ofBits_def]

/-- Entry (e, q) of the reference's per-edge array is the edge contribution of the displacement row e, the gathered
    width (e, q, 0) and centre (e, q, 1), and the weight (e, 0). -/
theorem ref_apply :
    val_main_v67 (F := Ideal) x0 x1 x2 x3 (ix2 e q)
      = edge (val_main_v44 (F := Ideal) x0 x2 x3 (ix3 e q (0 : Fin 2))) (val_main_v44 (F := Ideal) x0 x2 x3 (ix3 e q (1 : Fin 2)))
          (val_main_v63 (F := Ideal) x0 x2 (ix2 e (0 : Fin 1))) (fun k => val_main_v18 (F := Ideal) x1 x2 (ix2 e k)) := by
  rw [val_main_v67_apply, val_main_v65_apply, val_main_v66_apply, idx_weight, val_main_v64_apply, idx_cutoff, val_main_v54_apply,
    val_main_v53_apply, val_main_v49_apply, val_main_v52_apply, val_main_v51_apply, val_main_v50_apply, idx_radius,
    val_main_v46_apply, val_main_v45_apply, idx_width, val_main_v48_apply, val_main_v47_apply, idx_centre,
    ref_cutoff, ref_radius]
  unfold edge gauss
  simp only [Ideal.mulf_def, Ideal.subf_def, Ideal.hostUnary_exp_def, Ideal.hostNegf_def, Ideal.negf_def]

end Stages

end Cert.Radial

end
-- ==== Proof.LibRowGather.lean ====
/-
  Gathering whole rows of a table by one integer per result row, read at an entry.
  `x[idx]` for a table x with N rows and an integer column idx with R entries lowers to a gather whose start index has one
  component, for axis 0, with every other axis taken whole. Result entry (r, …) is the table's entry (ρ, …) on the row
  ρ = min(max(idx[r, 0], 0), N − 1): the start index is read as a signed integer and clamped so that the one-row slice
  fits. Stated here for tables of rank 2 (rows of C entries) and rank 3 (rows that are A × B slabs), for any extents.
-/
import Idealize.ShloMosaic.PureOps.ShapeOps
import Idealize.ShloMosaic.Lib.ValueIdx

noncomputable section

namespace Cert.LibRowGather

open Idealize.ShloMosaic Idealize.ShloMosaic.ValueIdx

variable {α : Type}

/-- The row a start-index column selects for result row `r` among `N` rows: its entry (r, 0) read signed and clamped
    into [0, N − 1]. -/
def pickRow {N R w : Nat} (hN : 0 < N) (idx : IVec ⟨2, ![R, 1]⟩ w) (r : Fin R) : Fin N :=
  ⟨min (idx (ix2 r (0 : Fin 1))).toInt.toNat (N - 1), by omega⟩

/-- The dimension numbers of a row gather from an `[N, C]` table by an `[R, 1]` column of start indices. -/
abbrev rowDims2 (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A row gather from an `[N, C]` table reads, at (r, j), the table at (the row picked for r, j). -/
theorem gather_rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowDims2 N C R wf) x idx (ix2 r j) = x (ix2 (pickRow hN idx r) j) := by
  unfold Host.gather
  refine congrArg x (funext fun a => Fin.ext ?_)
  match a with
  | ⟨0, _⟩ =>
    show (rowDims2 N C R wf).start (ix2 r j) idx 0 + (rowDims2 N C R wf).batchCoord (ix2 r j) 0
      + (rowDims2 N C R wf).offCoord (ix2 r j) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C R wf).startIndexMap from List.mem_singleton.mpr rfl)]
    have hsi : (rowDims2 N C R wf).siIdx (ix2 r j) ⟨List.idxOf (0 : Fin 2) (rowDims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims2 N C R wf).start (ix2 r j) idx 1 + (rowDims2 N C R wf).batchCoord (ix2 r j) 1
      + (rowDims2 N C R wf).offCoord (ix2 r j) 1 = j.val
    rw [GatherDims.batchCoord_eq_zero _ _ _ List.not_mem_nil]
    unfold GatherDims.start
    rw [dif_neg (show (1 : Fin 2) ∉ (rowDims2 N C R wf).startIndexMap from (by decide : (1 : Fin 2) ∉ ([0] : List (Fin 2))))]
    simp only [Nat.add_zero, Nat.zero_add]
    unfold GatherDims.offCoord
    rw [dif_pos (show (1 : Fin 2) ∈ (rowDims2 N C R wf).sKept from
      (GatherDims.mem_sKept _ _).mpr ⟨(by decide : (1 : Fin 2) ∉ ([0] : List (Fin 2))), List.not_mem_nil⟩)]
    rfl

/-- The dimension numbers of a row gather from an `[N, A, B]` table by an `[R, 1]` column of start indices. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A row gather from an `[N, A, B]` table reads, at (r, a, b), the table at (the row picked for r, a, b). -/
theorem gather_rows3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b) = x (ix3 (pickRow hN idx r) a b) := by
  unfold Host.gather
  refine congrArg x (funext fun c => Fin.ext ?_)
  match c with
  | ⟨0, _⟩ =>
    show (rowDims3 N A B R wf).start (ix3 r a b) idx 0 + (rowDims3 N A B R wf).batchCoord (ix3 r a b) 0
      + (rowDims3 N A B R wf).offCoord (ix3 r a b) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N A B R wf).startIndexMap from List.mem_singleton.mpr rfl)]
    have hsi : (rowDims3 N A B R wf).siIdx (ix3 r a b) ⟨List.idxOf (0 : Fin 3) (rowDims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    show (rowDims3 N A B R wf).start (ix3 r a b) idx 1 + (rowDims3 N A B R wf).batchCoord (ix3 r a b) 1
      + (rowDims3 N A B R wf).offCoord (ix3 r a b) 1 = a.val
    rw [GatherDims.batchCoord_eq_zero _ _ _ List.not_mem_nil]
    unfold GatherDims.start
    rw [dif_neg (show (1 : Fin 3) ∉ (rowDims3 N A B R wf).startIndexMap from (by decide : (1 : Fin 3) ∉ ([0] : List (Fin 3))))]
    simp only [Nat.add_zero, Nat.zero_add]
    unfold GatherDims.offCoord
    rw [dif_pos (show (1 : Fin 3) ∈ (rowDims3 N A B R wf).sKept from
      (GatherDims.mem_sKept _ _).mpr ⟨(by decide : (1 : Fin 3) ∉ ([0] : List (Fin 3))), List.not_mem_nil⟩)]
    rfl
  | ⟨2, _⟩ =>
    show (rowDims3 N A B R wf).start (ix3 r a b) idx 2 + (rowDims3 N A B R wf).batchCoord (ix3 r a b) 2
      + (rowDims3 N A B R wf).offCoord (ix3 r a b) 2 = b.val
    rw [GatherDims.batchCoord_eq_zero _ _ _ List.not_mem_nil]
    unfold GatherDims.start
    rw [dif_neg (show (2 : Fin 3) ∉ (rowDims3 N A B R wf).startIndexMap from (by decide : (2 : Fin 3) ∉ ([0] : List (Fin 3))))]
    simp only [Nat.add_zero, Nat.zero_add]
    unfold GatherDims.offCoord
    rw [dif_pos (show (2 : Fin 3) ∈ (rowDims3 N A B R wf).sKept from
      (GatherDims.mem_sKept _ _).mpr ⟨(by decide : (2 : Fin 3) ∉ ([0] : List (Fin 3))), List.not_mem_nil⟩)]
    rfl

end Cert.LibRowGather

end
-- ==== Proof.Gathers.lean ====
/-
  The two parameter gathers read the same numbers.
  One program lays the 118 × 22 × 2 parameter table out as 118 rows of 44 entries — the 22 widths (last coordinate 0)
  followed by the 22 centres (last coordinate 1) — and gathers one 44-entry row per edge; the other gathers one 22 × 2
  slab per edge from the table as it is. Both select the row by the same integer column, read signed and clamped into
  [0, 117]. So column q of the gathered row is entry (q, 0) of the gathered slab, and column 22 + q is entry (q, 1).
-/
import proofs.«153033_j90958817394879_1_alg».proof.Proof.Gen.KernelIdeal
import proofs.«153033_j90958817394879_1_alg».proof.Proof.Gen.ReferenceIdeal
import proofs.«153033_j90958817394879_1_alg».proof.Proof.LibRowGather
import Idealize.ShloMosaic.Lib.Pipeline.Value
import Idealize.ShloMosaic.Lib.ValueIdx

noncomputable section

namespace Cert.Radial

open Idealize.ShloMosaic Idealize.ShloMosaic.ValueIdx Cert.LibRowGather Cert.KernelIdeal Cert.KernelIdeal.Gen

variable {α : Type}

/-- Keeping the slab `o` of the last axis of the 118 × 22 × 2 table and dropping that axis reads, at (r, q), the table
    at (r, q, o). -/
theorem slab_apply (X : S118x22x2.Idx → α) (o : Fin 2) (hs : S118x22x2.Slices ![0, 0, o.val] S118x22x1)
    (hc : S118x22x1.ShapeCasts S118x22) (r : Fin 118) (q : Fin 22) :
    shapeCast S118x22 (extractStridedSlice S118x22x1 ![0, 0, o.val] X hs) hc (ix2 r q) = X (ix3 r q o) := by
  refine (shapeCast_apply _ hc (ix2 r q) (ix3 r q (0 : Fin 1)) ?_).trans ?_
  · rw [Shape.rowMajor_val_three, Shape.rowMajor_val_two]
    show (r.val * 22 + q.val) * 1 + 0 = r.val * 22 + q.val
    omega
  · refine extractStridedSlice_apply _ X hs _ (ix3 r q o) fun a => ?_
    match a with
    | ⟨0, _⟩ => show r.val = 0 + r.val; omega
    | ⟨1, _⟩ => show q.val = 0 + q.val; omega
    | ⟨2, _⟩ => show o.val = o.val + 0; omega

/-- The table flattened to 118 rows of 44: the widths' slab followed by the centres' slab along the row. -/
def flatTable (X : S118x22x2.Idx → α) : S118x44.Idx → α :=
  concatenate S118x44 1
    [⟨S118x22, shapeCast S118x22 (extractStridedSlice S118x22x1 ![0, 0, 0] X slices_S118x22x2_S118x22x1_0_0_0) shapeCasts_S118x22x1_S118x22⟩,
     ⟨S118x22, shapeCast S118x22 (extractStridedSlice S118x22x1 ![0, 0, 1] X slices_S118x22x2_S118x22x1_0_0_1) shapeCasts_S118x22x1_S118x22⟩]
    concatenates_S118x22_S118x22_S118x44_d1

/-- Column q < 22 of row r of the flattened table is the width (r, q, 0). -/
theorem flatTable_width (X : S118x22x2.Idx → α) (r : Fin 118) (q : Fin 22) :
    flatTable X (ix2 r (⟨q.val, by omega⟩ : Fin 44)) = X (ix3 r q (0 : Fin 2)) := by
  unfold flatTable
  refine (concatenate_pair_apply_left (t := S118x44) (s₁ := S118x22) (s₂ := S118x22) (1 : Fin 2) _ _ concatenates_S118x22_S118x22_S118x44_d1 _ rfl (ix2 r q) fun b => ?_).trans
    (slab_apply X (0 : Fin 2) slices_S118x22x2_S118x22x1_0_0_0 shapeCasts_S118x22x1_S118x22 r q)
  match b with
  | ⟨0, _⟩ => rfl
  | ⟨1, _⟩ => rfl

/-- Column 22 + q of row r of the flattened table is the centre (r, q, 1). -/
theorem flatTable_centre (X : S118x22x2.Idx → α) (r : Fin 118) (q : Fin 22) :
    flatTable X (ix2 r (⟨22 + q.val, by omega⟩ : Fin 44)) = X (ix3 r q (1 : Fin 2)) := by
  unfold flatTable
  refine (concatenate_pair_apply_right (t := S118x44) (s₁ := S118x22) (s₂ := S118x22) (1 : Fin 2) _ _ concatenates_S118x22_S118x22_S118x44_d1 _ rfl rfl (ix2 r q) (fun b hb => ?_) ?_).trans
    (slab_apply X (1 : Fin 2) slices_S118x22x2_S118x22x1_0_0_1 shapeCasts_S118x22x1_S118x22 r q)
  · match b with
    | ⟨0, _⟩ => rfl
    | ⟨1, _⟩ => exact absurd rfl hb
  · show q.val + 22 = 22 + q.val
    omega

/-- The row gathered from the flattened table holds, in column q, the width entry of the slab gathered from the table,
    for the same column of start indices. -/
theorem gather_width (X : S118x22x2.Idx → α) (idx : IVec S3200000x1 32) (e : Fin 3200000) (q : Fin 22) :
    Host.gather gather_S118x44_S3200000x1_S3200000x44_1_0_n_n_0_1_144 (flatTable X) idx (ix2 e (⟨q.val, by omega⟩ : Fin 44))
      = Host.gather Cert.ReferenceIdeal.gather_S118x22x2_S3200000x1_S3200000x22x2_12_0_n_n_0_1_1222 X idx (ix3 e q (0 : Fin 2)) := by
  rw [show gather_S118x44_S3200000x1_S3200000x44_1_0_n_n_0_1_144 = rowDims2 118 44 3200000 _ from rfl,
    show Cert.ReferenceIdeal.gather_S118x22x2_S3200000x1_S3200000x22x2_12_0_n_n_0_1_1222 = rowDims3 118 22 2 3200000 _ from rfl,
    gather_rows2_apply (by decide), gather_rows3_apply (by decide), flatTable_width]

/-- … and, in column 22 + q, the centre entry. -/
theorem gather_centre (X : S118x22x2.Idx → α) (idx : IVec S3200000x1 32) (e : Fin 3200000) (q : Fin 22) :
    Host.gather gather_S118x44_S3200000x1_S3200000x44_1_0_n_n_0_1_144 (flatTable X) idx (ix2 e (⟨22 + q.val, by omega⟩ : Fin 44))
      = Host.gather Cert.ReferenceIdeal.gather_S118x22x2_S3200000x1_S3200000x22x2_12_0_n_n_0_1_1222 X idx (ix3 e q (1 : Fin 2)) := by
  rw [show gather_S118x44_S3200000x1_S3200000x44_1_0_n_n_0_1_144 = rowDims2 118 44 3200000 _ from rfl,
    show Cert.ReferenceIdeal.gather_S118x22x2_S3200000x1_S3200000x22x2_12_0_n_n_0_1_1222 = rowDims3 118 22 2 3200000 _ from rfl,
    gather_rows2_apply (by decide), gather_rows3_apply (by decide), flatTable_centre]

end Cert.Radial

end
-- ==== Proof.Prefix.lean ====
/-
  The arrays the region finds, as functions of the arguments.
  Before the region both programs run the same host operations on the arguments: the receiver and sender columns of the
  edge list, each wrapped (a negative index has the extent added) for the gathers; the gathered coordinate rows and their
  difference; the sender's type converted to a number, as a column; the receiver's type, wrapped, as a column of start
  indices. One program then gathers rows of the flattened parameter table. So the displacement array, the weight column
  and the two index columns are the other program's arrays of the same name, and the parameter rows are the row gather of
  the flattened table by the receiver-type column.
-/
import proofs.«153033_j90958817394879_1_alg».proof.Proof.Gen.KernelIdeal.Frame
import proofs.«153033_j90958817394879_1_alg».proof.Proof.Gen.ReferenceIdeal.Read
import proofs.«153033_j90958817394879_1_alg».proof.Proof.Gathers
import Idealize.ShloMosaic.Lib.StableHlo.Run

set_option maxRecDepth 16384

noncomputable section

namespace Cert.Radial

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

set_option maxHeartbeats 8000000 in
/-- The displacement array the region finds is the difference of the two gathered coordinate arrays. -/
theorem found_displacement (c : Dev nD) :
    (V m c main_v18 : S3200000x3.Idx → EReal)
      = Cert.ReferenceIdeal.Read.val_main_v18 (F := Ideal) (m ((c : Thread nD τ).loc main_arg1)) (m ((c : Thread nD τ).loc main_arg2)) := by
  dsimp only [V, V0]
  simp only [hostOps0, List.flatten_cons, List.flatten_nil, List.append_nil]
  after_results_simp <;> rfl

set_option maxHeartbeats 8000000 in
/-- The weight column the region finds is the sender's type, converted to a number, as a column. -/
theorem found_weight (c : Dev nD) :
    (V m c main_v46 : S3200000x1.Idx → EReal)
      = Cert.ReferenceIdeal.Read.val_main_v63 (F := Ideal) (m ((c : Thread nD τ).loc main_arg0)) (m ((c : Thread nD τ).loc main_arg2)) := by
  dsimp only [V, V0]
  simp only [hostOps0, List.flatten_cons, List.flatten_nil, List.append_nil]
  after_results_simp <;> rfl

set_option maxHeartbeats 8000000 in
/-- The parameter rows the region finds are the row gather of the flattened parameter table by the wrapped receiver-type
    column. -/
theorem found_params (c : Dev nD) :
    (V m c main_v37 : S3200000x44.Idx → EReal)
      = Host.gather gather_S118x44_S3200000x1_S3200000x44_1_0_n_n_0_1_144 (flatTable (m ((c : Thread nD τ).loc main_arg3)))
          (Cert.ReferenceIdeal.Read.val_main_v43 (F := Ideal) (m ((c : Thread nD τ).loc main_arg0)) (m ((c : Thread nD τ).loc main_arg2))) := by
  dsimp only [V, V0]
  simp only [hostOps0, List.flatten_cons, List.flatten_nil, List.append_nil]
  after_results_simp <;> rfl

set_option maxHeartbeats 8000000 in
/-- The receiver column (unwrapped), which the scatter after the region reads, is the first column of the edge list. -/
theorem found_receivers (c : Dev nD) :
    (V0 m c (Proc.devRef .tc main_v1) : (⟨S3200000, .i32⟩ : BufTy).Contents (Elt Ideal))
      = Cert.ReferenceIdeal.Read.val_main_v1 (F := Ideal) (m ((c : Thread nD τ).loc main_arg2)) := by
  dsimp only [V0]
  simp only [hostOps0, List.flatten_cons, List.flatten_nil, List.append_nil]
  after_results_simp <;> rfl

end Cert.Radial

end
-- ==== Proof.Bridge.lean ====
/-
  The array the kernel leaves is the reference's per-edge array.
  Entry (e, q) of the kernel's output array is the edge contribution of the displacement row e, the parameter-row entries
  q and 22 + q, and the weight (e, 0) of the arrays the region finds. Those arrays are the reference's displacement array
  and weight column, and the parameter-row entries are the entries (q, 0) and (q, 1) of the reference's gathered slab. The
  reference's entry (e, q) is the edge contribution of exactly these numbers.
-/
import proofs.«153033_j90958817394879_1_alg».proof.Proof.Blocks
import proofs.«153033_j90958817394879_1_alg».proof.Proof.RefEdge
import proofs.«153033_j90958817394879_1_alg».proof.Proof.Prefix

noncomputable section

namespace Cert.Radial

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The per-edge array of the arrays the region finds is the reference's per-edge array of the arguments. -/
theorem found_eq_reference (c : Dev nD) :
    found m c = Cert.ReferenceIdeal.Read.val_main_v67 (F := Ideal) (m ((c : Thread nD τ).loc main_arg0))
      (m ((c : Thread nD τ).loc main_arg1)) (m ((c : Thread nD τ).loc main_arg2)) (m ((c : Thread nD τ).loc main_arg3)) := by
  funext i
  obtain ⟨e, q, rfl⟩ : ∃ (e : Fin 3200000) (q : Fin 22), i = ix2 e q := ⟨i 0, i 1, eq_ix2 i⟩
  unfold found
  rw [perEdge_apply, ref_apply, found_displacement, found_weight, found_params, gather_width, gather_centre]
  rfl

end Cert.Radial

end
-- ==== Proof.Tail.lean ====
/-
  The kernel's result.
  After the region the program scatters the per-edge array into an array of zeros (one row per node, one column per
  channel), adding row e to the row the receiver column names. The reference ends with the same scatter of its own
  per-edge array by the same receiver column. The two per-edge arrays are equal and the receiver columns are the same
  column of the edge list, so the results are equal; the scatter itself is never opened.
-/
import proofs.«153033_j90958817394879_1_alg».proof.Proof.Bridge
import Idealize.ShloMosaic.Lib.Pipeline.FrameSuffix
import Idealize.ShloMosaic.Lib.StableHlo.Run

set_option maxRecDepth 16384

noncomputable section

namespace Cert.Radial

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The result buffer after the lines that follow the region: the reference's result term of the arguments. -/
theorem kernel_result (c : Dev nD) :
    Pipeline.afterTail₀ cfgs (dats m) 0 (V0 m) [hostOps1] c main_v50
      = Cert.ReferenceIdeal.Read.val_main_v70 (F := Ideal) (m ((c : Thread nD τ).loc main_arg0))
          (m ((c : Thread nD τ).loc main_arg1)) (m ((c : Thread nD τ).loc main_arg2)) (m ((c : Thread nD τ).loc main_arg3)) := by
  have hA : Pipeline.withArrays (cfgs 0).spec c (V0 m c) (fun w => (dats m 0 c).arrAt w (cfgs 0).N) (Proc.devRef .tc main_v47)
      = found m c :=
    (Pipeline.withArrays_arr spec0 launch0.win.arr_inj c _ _ 3).trans (output_array m c)
  have hR : Pipeline.withArrays (cfgs 0).spec c (V0 m c) (fun w => (dats m 0 c).arrAt w (cfgs 0).N) (Proc.devRef .tc main_v1)
      = V0 m c (Proc.devRef .tc main_v1) :=
    Pipeline.withArrays_of_ne _ c (V0 m c) _ main_v1 (by exact (by decide : ∀ w, Pipeline.arrRef spec0 w ≠ main_v1))
  unfold Pipeline.afterTail₀
  simp only [hostOps1, List.flatten_cons, List.flatten_nil, List.append_nil]
  after_results
  rw [hA, hR, found_eq_reference, found_receivers]
  rfl

end Cert.Radial

end
-- ==== Proof.lean ====
/-
  Equivalence of the radial symmetry-function kernel and its reference on the extended reals.
  Both programs compute, for every edge (receiver i, sender j) of a graph on 100 000 nodes and every one of 22 channels,
  exp(−η (r − μ)²) · ½ (cos(clip(r, −8, 8) · c) + 1) · w — r the distance between the two nodes, η and μ the channel's
  parameters for the receiver's type, w the sender's type as a number, c the single-precision number nearest π/8 — and add
  it to the receiver's row. They differ only in layout: one flattens the parameter table to rows of 44 before gathering
  and computes the per-edge values in blocks of 4000 edges; the other gathers 22 × 2 slabs and computes on whole arrays.
  The steps: Edge (the per-edge formula), KernelEdge and BlockEntry (a stored block's entry is the formula at that edge),
  Blocks (the 800 blocks make up the whole per-edge array), RefEdge (the reference's per-edge array is the formula),
  Gathers and Prefix (the gathered parameters and the other inputs agree), Bridge (the two per-edge arrays are equal),
  Tail (the same scatter-add of equal arrays by the same receiver column). No step needs the inputs to be finite.
-/
import proofs.«153033_j90958817394879_1_alg».proof.Defs
import proofs.«153033_j90958817394879_1_alg».proof.Proof.Gen.Kernel
import proofs.«153033_j90958817394879_1_alg».proof.Proof.Gen.Kernel.Skeleton
import proofs.«153033_j90958817394879_1_alg».proof.Proof.Gen.Kernel.Launch
import proofs.«153033_j90958817394879_1_alg».proof.Proof.Gen.Kernel.Points
import proofs.«153033_j90958817394879_1_alg».proof.Proof.Gen.Kernel.Frame
import proofs.«153033_j90958817394879_1_alg».proof.Proof.Gen.KernelIdeal
import proofs.«153033_j90958817394879_1_alg».proof.Proof.Gen.KernelIdeal.Skeleton
import proofs.«153033_j90958817394879_1_alg».proof.Proof.Gen.KernelIdeal.Launch
import proofs.«153033_j90958817394879_1_alg».proof.Proof.Gen.KernelIdeal.Points
import proofs.«153033_j90958817394879_1_alg».proof.Proof.Gen.KernelIdeal.Frame
import proofs.«153033_j90958817394879_1_alg».proof.Proof.Gen.ReferenceIdeal
import proofs.«153033_j90958817394879_1_alg».proof.Proof.Gen.Pre_finite_inputs
import proofs.«153033_j90958817394879_1_alg».proof.Proof.Gen.ReferenceIdeal.Run
import proofs.«153033_j90958817394879_1_alg».proof.Proof.Gen.ReferenceIdeal.Read
import proofs.«153033_j90958817394879_1_alg».proof.Proof.Tail
import Idealize.ShloMosaic.Adequacy
import Idealize.ShloMosaic.Init

noncomputable section

namespace Cert.Proof

open Idealize.ShloMosaic Idealize.ShloMosaic.TcCoe Idealize.SL.Sem

/-- The kernel's program runs, nothing faulting, and leaves its arguments as they were (the generated frame). -/
theorem frame_k : Cert.frame_Kernel := fun m ρ _ => Cert.Kernel.Gen.frame m ρ

/-- The same for the program read on the extended reals. -/
theorem frame_ki : Cert.frame_KernelIdeal := fun m ρ _ => Cert.KernelIdeal.Gen.frame m ρ

/-- The reference runs and leaves its arguments as they were: its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run with its result named: the result buffer ends at the reference's result term of the arguments, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v50)
          = Cert.ReferenceIdeal.Read.val_main_v70 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨((h c).2 Cert.KernelIdeal.main_v50 (Pipeline.mem_restRefs_of Cert.KernelIdeal.main_v50 (by decide) (by decide))).trans
        (Cert.Radial.kernel_result m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩)
    (Cert.KernelIdeal.Gen.run_main m ρ)

/-- From memories that agree on the arguments both programs end with the same result: the reference's result term of the
    arguments, which the kernel's run reaches (`kernel_run`) and the reference's own run states. -/
theorem algebraic : Cert.algebraic_KernelIdeal_ReferenceIdeal := by
  intro m ρ m' ρ' _ hagree
  refine ⟨fun c => Cert.ReferenceIdeal.Read.val_main_v70 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v70_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
